-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel

variable [Facts]

def fn {F : FTy → Type} [FloatOps F] (main_arg0 : FVec F S131072x512 .f32) (main_arg1 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  main_v3
-- ==== Kernel.lean ====
abbrev S131072x512 : Shape := ⟨2, ![131072, 512]⟩
abbrev S131072 : Shape := ⟨1, ![131072]⟩
abbrev S131072x1 : Shape := ⟨2, ![131072, 1]⟩
abbrev S4096x512 : Shape := ⟨2, ![4096, 512]⟩
abbrev S4096x1 : Shape := ⟨2, ![4096, 1]⟩

abbrev nBuf : Space → Nat
  | .hbm => 4
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S131072x1, .i32⟩
  | .hbm, ⟨3, _⟩ => ⟨S131072x512, .f32⟩
  | .local _ .vmem, ⟨0, _⟩ => ⟨S4096x512, .f32⟩
  | .local _ .vmem, ⟨1, _⟩ => ⟨S4096x512, .f32⟩
  | .local _ .vmem, ⟨2, _⟩ => ⟨S4096x1, .i32⟩
  | .local _ .vmem, ⟨3, _⟩ => ⟨S4096x1, .i32⟩
  | .local _ .vmem, ⟨4, _⟩ => ⟨S4096x512, .f32⟩
  | .local _ .vmem, ⟨5, _⟩ => ⟨S4096x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S131072_S131072x1 : S131072.ShapeCasts S131072x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x512_d1_w32 : S4096x512.Iotas .tc 32 [1]
  broadcasts_S4096x1_S4096x512 : S4096x1.Broadcasts S4096x512
  inb_S4096x512_S4096x512_0_0 : ∀ a, (![0, 0] : Fin 2 → Nat) a + S4096x512.size a ≤ S4096x512.size a
  h_S4096x512 : 0 < S4096x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .i32 = 32 ∨ (Rect.block (s := S131072x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S131072x512.size a
  hwx0_2 : ∀ i : grid0.Coords, EltTy.bits .f32 = 32 ∨ (Rect.block (s := S131072x512) S4096x512.size (cc0_transform_2 i) (hinb0_2 i)).WholeWords (EltTy.packing .f32)

variable [Facts₀]

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S131072x512 : Shape := ⟨2, ![131072, 512]⟩
abbrev S131072 : Shape := ⟨1, ![131072]⟩
abbrev S_ : Shape := ⟨0, ![]⟩
abbrev S512 : Shape := ⟨1, ![512]⟩
abbrev S1x512 : Shape := ⟨2, ![1, 512]⟩
abbrev S131072x1 : Shape := ⟨2, ![131072, 1]⟩

abbrev nBuf : Space → Nat
  | .hbm => 21
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S_, .i32⟩
  | .hbm, ⟨3, _⟩ => ⟨S131072, .i32⟩
  | .hbm, ⟨4, _⟩ => ⟨S131072, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i32⟩
  | .hbm, ⟨13, _⟩ => ⟨S512, .i32⟩
  | .hbm, ⟨14, _⟩ => ⟨S1x512, .i32⟩
  | .hbm, ⟨15, _⟩ => ⟨S131072x1, .i32⟩
  | .hbm, ⟨16, _⟩ => ⟨S131072x512, .i32⟩
  | .hbm, ⟨17, _⟩ => ⟨S131072x512, .i32⟩
  | .hbm, ⟨18, _⟩ => ⟨S131072x512, .i1⟩
  | .hbm, ⟨19, _⟩ => ⟨S131072x512, .f32⟩
  | .hbm, ⟨20, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S512_S1x512_1 : S512.BroadcastsInDim S1x512 (![1] : Fin 1 → Fin S1x512.rank)
  bcast_S131072_S131072x1_0 : S131072.BroadcastsInDim S131072x1 (![0] : Fin 1 → Fin S131072x1.rank)
  bcast_S1x512_S131072x512_0_1 : S1x512.BroadcastsInDim S131072x512 (![0, 1] : Fin 2 → Fin S131072x512.rank)
  bcast_S131072x1_S131072x512_0_1 : S131072x1.BroadcastsInDim S131072x512 (![0, 1] : Fin 2 → Fin S131072x512.rank)

variable [Facts₀]

class Facts : Prop extends Facts₀ where

variable [Facts]
-- ==== Proof.NestedMask.lean ====
/-
  Nested dropout of one row. A row whose draw is the 32-bit word `g` keeps its first `cutoff g` columns and is
  zero from there on, where `cutoff g = min(512, max(8, 8·g))` is computed on 32-bit words: a wrapping product, then
  the signed maximum and minimum. Column `q` is kept when `q < cutoff g` as signed words (`keeps`), and the
  result array is `masked x g`: entry `(r, q)` is `x (r, q)` where row `r` keeps column `q`, else `0`.

  The one law both programs meet at: multiplying an extended real by a one-bit word read as a number (`1` or `0`)
  is choosing between it and zero (`mul_bit`). It holds for EVERY extended real, the infinities included
  (`⊤ · 0 = 0` there), so nothing about the inputs is asked.
-/
import Idealize.ShloMosaic.PureOps.Ideal
import Idealize.ShloMosaic.Lib.ValueIdx

noncomputable section

namespace Cert.NestedMask

open Idealize.ShloMosaic Idealize.ShloMosaic.ValueIdx

/-- How many leading columns a row with draw `g` keeps: `8·g` clamped into `[8, 512]`, on signed 32-bit words. -/
def cutoff (g : BitVec 32) : BitVec 32 := IntOp.minsi 512#32 (IntOp.maxsi 8#32 (IntOp.muli g 8#32))

/-- The bit saying that a row with draw `g` keeps column `q`: `q < cutoff g`, compared signed. -/
def keeps (g : BitVec 32) (q : Nat) : BitVec 1 := IntOp.cmpi .slt (BitVec.ofNat 32 q) (cutoff g)

/-- The masked array: entry `(r, q)` of `x` where row `r` keeps column `q`, zero elsewhere. -/
def masked (x : (⟨2, ![131072, 512]⟩ : Shape).Idx → EReal) (g : (⟨1, ![131072]⟩ : Shape).Idx → BitVec 32) :
    (⟨2, ![131072, 512]⟩ : Shape).Idx → EReal :=
  fun i => Scalar.select (keeps (g (ix1 (i 0))) (i 1).val) (x i) 0

/-- An extended real times a bit read as the number `0` or `1` is the choice between it and zero. -/
theorem mul_bit (x : EReal) (b : BitVec 1) : x * ((b.toNat : ℝ) : EReal) = Scalar.select b x 0 := by
  unfold Scalar.select
  by_cases h : b = 1
  · subst h
    simp
  · have h0 : b = 0 := eq_zero_of_ne_one h
    subst h0
    simp

end Cert.NestedMask

end
-- ==== Proof.HostMasked.lean ====
/-
  The host program computes the masked array. Its last stage is `x · float(mask)`, the mask the one-bit comparison
  of a column number (an iota along the columns, laid along every row) with the row's cutoff (the draws times 8,
  clamped into [8, 512], laid along every column). Read at an entry `(r, q)`: the column number is `q`, the
  cutoff is that of draw `g r`, and the product with the bit read as a number is the choice between `x (r, q)`
  and zero (`NestedMask.mul_bit`).
-/
import proofs.«158155_j60430189854823_2_alg».proof.Proof.Gen.ReferenceIdeal.Read
import proofs.«158155_j60430189854823_2_alg».proof.Proof.NestedMask

noncomputable section

namespace Cert.HostMasked

open Idealize.ShloMosaic Idealize.ShloMosaic.ValueIdx Cert.ReferenceIdeal Cert.ReferenceIdeal.Read Cert.NestedMask

/-- The row an entry's cutoff is read at: the two keep-dims broadcasts of the cutoff vector go back to the entry's row. -/
theorem row_of (i : S131072x512.Idx) : idx_main_v5 (idx_main_v7 i) = ix1 (i 0) := by
  funext a; match a with | ⟨0, _⟩ => rfl

/-- The reference's result is the masked array of its two arguments. -/
theorem result_eq (x : (⟨S131072x512, .f32⟩ : BufTy).Contents (Elt Ideal)) (g : (⟨S131072, .i32⟩ : BufTy).Contents (Elt Ideal)) :
    val_main_v10 (F := Ideal) x g = masked x g := by
  funext i
  rw [val_main_v10_apply, val_main_v9_apply, val_main_v8_apply, val_main_v6_apply, val_main_v4_apply, val_main_v3_apply,
    val_main_v7_apply, val_main_v5_apply, val_main_v2_apply, val_main_call0_v4_apply, val_main_call0_v3_apply,
    val_main_c_1_apply, val_main_call0_v2_apply, val_main_call0_v1_apply, val_main_call0_v0_apply, val_main_c_0_apply,
    val_main_v1_apply, val_main_v0_apply, val_main_c_apply, row_of]
  exact mul_bit _ _

end Cert.HostMasked

end
-- ==== Proof.TileMasked.lean ====
/-
  One tile of the kernel. The body reads a block of 4096 rows of `x` and the column of those rows' draws, and stores
  the select between the block and zero on the bit "column number < the row's cutoff": the column number is an iota
  along the columns, the cutoff the draws' column times 8 clamped into [8, 512] and laid along every column. Read at
  entry `(p, q)` of the tile this is the choice `NestedMask.keeps (draw of row p) q` between `x (p, q)` and zero.
-/
import proofs.«158155_j60430189854823_2_alg».proof.Proof.Gen.KernelIdeal.Skeleton
import proofs.«158155_j60430189854823_2_alg».proof.Proof.NestedMask
import Idealize.ShloMosaic.Lib.Pipeline.Value
import Idealize.ShloMosaic.PureOps.Ideal.Laws

noncomputable section

namespace Cert.TileMasked

open Idealize.ShloMosaic Idealize.ShloMosaic.ValueIdx Cert.KernelIdeal Cert.KernelIdeal.Gen Cert.NestedMask

/-- The draws' column laid along every column of the tile reads, at `(p, q)`, the column's entry of row `p`. -/
theorem spread_apply (v : IVec S4096x1 32) (h : S4096x1.Broadcasts S4096x512) (p : Fin 4096) (q : Fin 512) :
    broadcastTo S4096x512 v h (ix2 p q) = v (ix2 p 0) :=
  broadcastTo_apply v h (ix2 p q) (ix2 p 0) (fun a => by
    match a with
    | ⟨0, _⟩ => show p.val = if (4096 : Nat) = 1 then 0 else p.val; rw [if_neg (by decide)]
    | ⟨1, _⟩ => show 0 = if (1 : Nat) = 1 then 0 else q.val; rw [if_pos rfl])

/-- The tile's stored value at entry `(p, q)`: `x (p, q)` where row `p` keeps column `q`, else zero. -/
theorem tile_apply (d : Vec Ideal S4096x1 .i32) (x : Vec Ideal S4096x512 .f32) (p : Fin 4096) (q : Fin 512) :
    k0_pay1 (F := Ideal) d x (ix2 p q) = Scalar.select (keeps (d (ix2 p 0)) q.val) (x (ix2 p q)) 0 := by
  unfold k0_pay1
  show Scalar.select (IntOp.cmpi .slt (iota .tc S4096x512 32 [1] iota_S4096x512_d1_w32 (ix2 p q))
      (broadcastTo S4096x512 (minsi (broadcast S4096x1 512#32) (maxsi (broadcast S4096x1 8#32)
        (muli (shapeCast S4096x1 d shapeCasts_S4096x1_S4096x1) (broadcast S4096x1 8#32)))) broadcasts_S4096x1_S4096x512 (ix2 p q)))
      (x (ix2 p q)) (Ideal.ofBits .f32 0x00000000#32) = _
  rw [iota_single_apply, spread_apply, shapeCast_self, Ideal.ofBits_zero_f32]
  rfl

end Cert.TileMasked

end
-- ==== Proof.KernelMasked.lean ====
/-
  The kernel's result array is the masked array. The grid has 32 points; point `t` reads rows
  `4096·t … 4096·t + 4095` of `x` (all 512 columns) and the same rows of the draws' column (the draws reshaped to
  `[131072, 1]` before the call), and writes back the same rows of the result. So what point `t` writes back is block
  `t` of `NestedMask.masked x g`: entry `(p, q)` of the tile is the tile's select (`TileMasked.tile_apply`), its
  `x` entry is `x (4096·t + p, q)`, its draw is `g (4096·t + p)` (row-major position `4096·t + p` of the
  reshaped column), and its column number is `q` itself since the blocks span all columns. The 32 blocks cover every
  row (row `r` lies in block `r / 4096`), hence the whole array ends at `masked x g`.
-/
import proofs.«158155_j60430189854823_2_alg».proof.Proof.Gen.KernelIdeal.Value
import proofs.«158155_j60430189854823_2_alg».proof.Proof.TileMasked
import Idealize.ShloMosaic.Lib.StableHlo.Run

noncomputable section

namespace Cert.KernelMasked

open Idealize.ShloMosaic Idealize.ShloMosaic.TcCoe Idealize.SL.Sem Idealize.ShloMosaic.ValueIdx
open Cert.KernelIdeal Cert.KernelIdeal.Gen Cert.KernelIdeal.Value Cert.NestedMask Cert.TileMasked
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The draws' column as the call finds it: the draws vector reshaped to one column. -/
theorem draws_column (c : Dev nD) :
    (V m c main_v0 : S131072x1.Idx → BitVec 32)
      = shapeCast S131072x1 (m ((c : Thread nD τ).loc main_arg1)) shapeCasts_S131072_S131072x1 := by
  dsimp only [V, hostOps0]; after_results; rfl

/-- Entry `(r, 0)` of the reshaped column is draw `r`, stated for any row-major position. -/
theorem column_apply (g : S131072.Idx → BitVec 32) (h : S131072.ShapeCasts S131072x1) (k : S131072x1.Idx) (r : Fin 131072)
    (hk : r.val = (k 0).val * 1 + (k 1).val) : shapeCast S131072x1 g h k = g (ix1 r) :=
  shapeCast_apply g h k (ix1 r) (by rw [Shape.rowMajor_val_one, Shape.rowMajor_val_two]; exact hk)

/-- The three windows' block numbers over the grid: the `x` blocks and the draws' blocks move with the result's
    blocks along the rows, point `t` at block row `t`, and every block is at block column `0`. -/
theorem block_numbers : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0 :=
  (by decide +kernel : ∀ t : Fin grid0.N, _)

/-- One entry of a tile against one entry of the masked array: equal when the tile's `x` entry, draw and column
    number are the array entry's. -/
theorem tile_eq (d : Vec Ideal S4096x1 .i32) (x : Vec Ideal S4096x512 .f32)
    (X : S131072x512.Idx → EReal) (g : S131072.Idx → BitVec 32) (p : Fin 4096) (q : Fin 512) (i : S131072x512.Idx)
    (hx : x (ix2 p q) = X i) (hd : d (ix2 p 0) = g (ix1 (i 0))) (hq : q.val = (i 1).val) :
    k0_pay1 (F := Ideal) d x (ix2 p q) = masked X g i := by
  rw [tile_apply, hx, hd, hq]; rfl

/-- WHAT POINT `t` WRITES BACK is block `t` of the masked array of the two arguments. -/
theorem flushed_eq (c : Dev nD) (t : Fin cfg0.N) :
    (dats m 0 c).flushed 2 t = ((cfg0.win 2).blk t).view.read (Elt Ideal)
      (masked (m ((c : Thread nD τ).loc main_arg0)) (m ((c : Thread nD τ).loc main_arg1))) := by
  rw [flushed2]
  unfold out0_2
  rw [View.canon_unit_zero origin]
  simp only [View.ld_unit_zero (S := S4096x512) origin, View.ld_unit_zero (S := S4096x1) origin]
  obtain ⟨e00, e01, e10, e11, e20, e21⟩ := block_numbers t
  funext j
  show k0_pay1 (F := Ideal) (iblk m c 1 t) (iblk m c 0 t) j
    = masked (m ((c : Thread nD τ).loc main_arg0)) (m ((c : Thread nD τ).loc main_arg1)) (((cfg0.win 2).blk t).view.emb j)
  refine (congrArg (k0_pay1 (F := Ideal) (iblk m c 1 t) (iblk m c 0 t)) (eq_ix2 (n0 := 4096) (n1 := 512) j)).trans ?_
  have hj0 : (j 0).val < 4096 := (j 0).isLt
  have hj1 : (j 1).val < 512 := (j 1).isLt
  refine tile_eq (iblk m c 1 t) (iblk m c 0 t) (m ((c : Thread nD τ).loc main_arg0)) (m ((c : Thread nD τ).loc main_arg1))
    (j 0) (j 1) (((cfg0.win 2).blk t).view.emb j) ?_ ?_ ?_
  · show V m c main_arg0 (((cfg0.win 0).blk t).view.emb (ix2 (j 0) (j 1))) = _
    rw [V_main_arg0]
    refine congrArg _ (funext fun a => Fin.ext ?_)
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 512 + 1 * (j 1).val = win0_2.index t (1 : Fin 2) * 512 + 1 * (j 1).val; omega
  · show (V m c main_v0 : S131072x1.Idx → BitVec 32) (((cfg0.win 1).blk t).view.emb (ix2 (j 0) 0)) = _
    rw [draws_column]
    refine column_apply _ _ _ _ ?_
    show win0_2.index t (0 : Fin 2) * 4096 + 1 * (j 0).val
      = (win0_1.index t (0 : Fin 2) * 4096 + 1 * (j 0).val) * 1 + (win0_1.index t (1 : Fin 2) * 1 + 1 * 0)
    omega
  · show (j 1).val = win0_2.index t (1 : Fin 2) * 512 + 1 * (j 1).val
    omega

/-- An index of the array is in point `t`'s block iff each coordinate is in the block's range on its axis. -/
theorem mem_block (t : Fin cfg0.N) (i : S131072x512.Idx) :
    i ∈ ((cfg0.win 2).blk t).view.set ↔ ∀ a : Fin 2, win0_2.index t a * S4096x512.size a ≤ (i a).val
      ∧ (i a).val < win0_2.index t a * S4096x512.size a + S4096x512.size a := by
  show i ∈ ((View.whole main_v1).slice (win0_2.rect t)).set ↔ _
  rw [View.set_slice_whole, Rect.mem_set_unit]
  exact Iff.rfl

/-- Every entry of the array lies in some point's block: row `r` in the block of point `r / 4096`. -/
theorem covered (i : S131072x512.Idx) :
    ∃ t : Fin cfg0.N, (cfg0.win 2).flush t = true ∧ i ∈ ((cfg0.win 2).blk t).view.set := by
  have hi0 : (i 0).val < 131072 := (i 0).isLt
  have hi1 : (i 1).val < 512 := (i 1).isLt
  have hN : cfg0.N = 32 := N_0
  let t : Fin cfg0.N := ⟨(i 0).val / 4096, by omega⟩
  obtain ⟨-, -, -, -, e20, e21⟩ := block_numbers t
  have ht : t.val = (i 0).val / 4096 := rfl
  refine ⟨t, flush0_2 t, ?_⟩
  rw [mem_block]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 512 ≤ (i 1).val ∧ (i 1).val < win0_2.index t (1 : Fin 2) * 512 + 512; omega

/-- THE RESULT ARRAY after the run is the masked array of the two arguments. -/
theorem final (c : Dev nD) : (dats m 0 c).arrAt 2 cfg0.N
    = masked (m ((c : Thread nD τ).loc main_arg0)) (m ((c : Thread nD τ).loc main_arg1)) :=
  (dats m 0 c).arrAt_eq_of_cover 2 (masked (m ((c : Thread nD τ).loc main_arg0)) (m ((c : Thread nD τ).loc main_arg1)))
    (fun t _ => flushed_eq m c t) covered

/-- The kernel's run: every weakly fair execution ends with the result at the masked array, the arguments unchanged. -/
theorem run : θ_run defs (onTc (τ := τ) (main (F := Ideal))) ⟨m, fun _ => 0, ρ⟩ fun r => ∀ c : Dev nD,
      r.2.mem ((c : Thread nD τ).loc main_v1)
        = masked (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelMasked

end
-- ==== Proof.lean ====
/-
  Nested dropout, kernel against reference, at the extended reals.

  Both programs compute one array: entry `(r, q)` of `x` where `q` is below row `r`'s cutoff
  `min(512, max(8, 8·g r))` (32-bit words, signed comparisons), and zero elsewhere — `NestedMask.masked x g`.
  The kernel selects between `x` and zero tile by tile over 32 blocks of 4096 rows (`KernelMasked.run`); the reference
  multiplies `x` by the comparison bit read as the number `0` or `1` (`HostMasked.result_eq`). The two meet at the law
  that an extended real times such a bit is the choice between it and zero (`NestedMask.mul_bit`), which holds at the
  infinities too, so the finiteness of the inputs is never used.

  The three frames are the generated ones (the reference's is its generated run with the result dropped); the kernel's
  idealization rewrote no operation, so there is nothing to preserve.
-/
import proofs.«158155_j60430189854823_2_alg».proof.Defs
import proofs.«158155_j60430189854823_2_alg».proof.Proof.Gen.Kernel
import proofs.«158155_j60430189854823_2_alg».proof.Proof.Gen.Kernel.Skeleton
import proofs.«158155_j60430189854823_2_alg».proof.Proof.Gen.Kernel.Launch
import proofs.«158155_j60430189854823_2_alg».proof.Proof.Gen.Kernel.Points
import proofs.«158155_j60430189854823_2_alg».proof.Proof.Gen.Kernel.Frame
import proofs.«158155_j60430189854823_2_alg».proof.Proof.Gen.KernelIdeal
import proofs.«158155_j60430189854823_2_alg».proof.Proof.Gen.KernelIdeal.Skeleton
import proofs.«158155_j60430189854823_2_alg».proof.Proof.Gen.KernelIdeal.Launch
import proofs.«158155_j60430189854823_2_alg».proof.Proof.Gen.KernelIdeal.Points
import proofs.«158155_j60430189854823_2_alg».proof.Proof.Gen.KernelIdeal.Frame
import proofs.«158155_j60430189854823_2_alg».proof.Proof.Gen.ReferenceIdeal
import proofs.«158155_j60430189854823_2_alg».proof.Proof.Gen.Pre_finite_inputs
import proofs.«158155_j60430189854823_2_alg».proof.Proof.Gen.KernelIdeal.Value
import proofs.«158155_j60430189854823_2_alg».proof.Proof.Gen.ReferenceIdeal.Run
import proofs.«158155_j60430189854823_2_alg».proof.Proof.Gen.ReferenceIdeal.Read
import proofs.«158155_j60430189854823_2_alg».proof.Proof.NestedMask
import proofs.«158155_j60430189854823_2_alg».proof.Proof.HostMasked
import proofs.«158155_j60430189854823_2_alg».proof.Proof.KernelMasked
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on `x` and the draws, the kernel's result array and the reference's are both the masked
    array of those two arguments. -/
theorem algebraic : Cert.algebraic_KernelIdeal_ReferenceIdeal := by
  intro m ρ m' ρ' _ hagree
  refine ⟨fun c => Cert.NestedMask.masked (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelMasked.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.HostMasked.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
